-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S64x10 .f32) (main_arg9 : FVec F S10 .f32) (main_v33 : IVec S_ 1) : IVec S_ 1 :=
  let main_v34 : FVec F S64x10 .f32 := Host.absf main_arg8
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S32x64 .f32) (main_arg6 : FVec F S32x64 .f32) (main_arg7 : FVec F S64 .f32) (main_arg8 : FVec F S64x10 .f32) (main_arg9 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x16 .f32) (main_arg1 : IVec S2x1600000 32) (main_arg2 : FVec F S16x32 .f32) (main_arg3 : FVec F S16x32 .f32) (main_arg4 : FVec F S32 .f32) (main_arg5 : FVec F S32x64 .f32) (main_arg6 : FVec F S32x64 .f32) (main_arg7 : FVec F S64 .f32) (main_arg8 : FVec F S64x10 .f32) (main_arg9 : FVec F S10 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_v13 main_v16
-- ==== Kernel.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1x32 : Shape := ⟨2, ![1, 32]⟩
abbrev S100000x32 : Shape := ⟨2, ![100000, 32]⟩
abbrev S10000x16 : Shape := ⟨2, ![10000, 16]⟩
abbrev S10000x32 : Shape := ⟨2, ![10000, 32]⟩
abbrev S1600000x32 : Shape := ⟨2, ![1600000, 32]⟩
abbrev S1x64 : Shape := ⟨2, ![1, 64]⟩
abbrev S1x10 : Shape := ⟨2, ![1, 10]⟩
abbrev S100000x10 : Shape := ⟨2, ![100000, 10]⟩
abbrev S10000x10 : Shape := ⟨2, ![10000, 10]⟩
abbrev S10000x64 : Shape := ⟨2, ![10000, 64]⟩

abbrev nBuf : Space → Nat
  | .hbm => 45
  | .vmem => 20
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S16x32, .f32⟩
  | .hbm, ⟨4, _⟩ => ⟨S32, .f32⟩
  | .hbm, ⟨5, _⟩ => ⟨S32x64, .f32⟩
  | .hbm, ⟨6, _⟩ => ⟨S32x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x16, .f32⟩
  | .hbm, ⟨23, _⟩ => ⟨S_, .f32⟩
  | .hbm, ⟨24, _⟩ => ⟨S100000x16, .f32⟩
  | .hbm, ⟨25, _⟩ => ⟨S1600000x1, .i32⟩
  | .hbm, ⟨26, _⟩ => ⟨S100000x16, .f32⟩
  | .hbm, ⟨27, _⟩ => ⟨S1x32, .f32⟩
  | .hbm, ⟨28, _⟩ => ⟨S100000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S_, .f32⟩
  | .hbm, ⟨39, _⟩ => ⟨S100000x32, .f32⟩
  | .hbm, ⟨40, _⟩ => ⟨S1600000x1, .i32⟩
  | .hbm, ⟨41, _⟩ => ⟨S100000x32, .f32⟩
  | .hbm, ⟨42, _⟩ => ⟨S1x64, .f32⟩
  | .hbm, ⟨43, _⟩ => ⟨S1x10, .f32⟩
  | .hbm, ⟨44, _⟩ => ⟨S100000x10, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S16x32, .f32⟩
  | .local _ .vmem, ⟨5, _⟩ => ⟨S16x32, .f32⟩
  | .local _ .vmem, ⟨6, _⟩ => ⟨S1x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x64, .f32⟩
  | .local _ .vmem, ⟨14, _⟩ => ⟨S32x64, .f32⟩
  | .local _ .vmem, ⟨15, _⟩ => ⟨S1x64, .f32⟩
  | .local _ .vmem, ⟨16, _⟩ => ⟨S64x10, .f32⟩
  | .local _ .vmem, ⟨17, _⟩ => ⟨S1x10, .f32⟩
  | .local _ .vmem, ⟨18, _⟩ => ⟨S10000x10, .f32⟩
  | .local _ .vmem, ⟨19, _⟩ => ⟨S10000x10, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x10 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  shapeCasts_S32_S1x32 : S32.ShapeCasts S1x32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S64_S1x64 : S64.ShapeCasts S1x64
  shapeCasts_S10_S1x10 : S10.ShapeCasts S1x10
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x32_S10000x32_1_0_0_1_n_n_wf : DotDims.WF S10000x16 S16x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  dot_S10000x64_S64x10_S10000x10_1_0_0_1_n_n_wf : DotDims.WF S10000x64 S64x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .f32 = 32 ∨ (Rect.block (s := S100000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x10.size a ≤ S64x10.size a
  hwx1_5 : ∀ i : grid1.Coords, EltTy.bits .f32 = 32 ∨ (Rect.block (s := S64x10) S64x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x10.size a ≤ S100000x10.size a
  hwx1_7 : ∀ i : grid1.Coords, EltTy.bits .f32 = 32 ∨ (Rect.block (s := S100000x10) S10000x10.size (cc1_transform_7 i) (hinb1_7 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

abbrev win0_0 : Pipeline.Window sig grid0 :=
  Pipeline.Window.ofSpec (Memref.whole main_v13) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S10000x10.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 56
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S16x32, .f32⟩
  | .hbm, ⟨4, _⟩ => ⟨S32, .f32⟩
  | .hbm, ⟨5, _⟩ => ⟨S32x64, .f32⟩
  | .hbm, ⟨6, _⟩ => ⟨S32x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x16, .f32⟩
  | .hbm, ⟨23, _⟩ => ⟨S_, .f32⟩
  | .hbm, ⟨24, _⟩ => ⟨S100000x16, .f32⟩
  | .hbm, ⟨25, _⟩ => ⟨S1600000x1, .i32⟩
  | .hbm, ⟨26, _⟩ => ⟨S100000x16, .f32⟩
  | .hbm, ⟨27, _⟩ => ⟨S100000x32, .f32⟩
  | .hbm, ⟨28, _⟩ => ⟨S100000x32, .f32⟩
  | .hbm, ⟨29, _⟩ => ⟨S100000x32, .f32⟩
  | .hbm, ⟨30, _⟩ => ⟨S1x32, .f32⟩
  | .hbm, ⟨31, _⟩ => ⟨S100000x32, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S100000x10, .f32⟩
  | .hbm, ⟨53, _⟩ => ⟨S1x10, .f32⟩
  | .hbm, ⟨54, _⟩ => ⟨S100000x10, .f32⟩
  | .hbm, ⟨55, _⟩ => ⟨S100000x10, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x10_S100000x10_1_0_0_1_n_n_wf : DotDims.WF S100000x64 S64x10 S100000x10 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.KernelRun.lean ====
/-
  The idealized kernel program's run, with its result array named.

  The program is two row-tiled dense layers, each preceded by a stretch of host operations (the neighbour sums). Its
  generated frame follows the TensorCore's buffer contents from boundary to boundary: launch, entry of the first
  layer, its exit, entry of the second layer, its exit. The frame theorem keeps, of the last boundary, only that the
  arguments are as launched. Here the same run is read once more, keeping also what the last boundary holds at the
  result buffer: the second layer's output array after all its row blocks have been written back.
-/
import proofs.«126003_j77146202571273_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second layer's output window's array. -/
theorem result_is_window7 : Pipeline.arrRef spec1 7 = main_v28 := rfl

set_option backward.isDefEq.respectTransparency.types false in
/-- Every weakly fair execution of the program terminates, nothing faulting, with the result buffer at the last
    boundary's contents and the arguments as launched. -/
theorem run_last : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-- The same run with the last boundary's contents at the result buffer spelt out: the second layer's output array
    after every grid point's write-back. -/
theorem run_result : θ_run defs (onTc (τ := τ) (main (F := F))) ⟨m, fun _ => 0, ρ⟩ (fun r => ∀ c : Dev nD,
      r.2.mem ((c.tc : Thread nD τ).loc main_v28) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W4_arr m ρ c 7), (h c).2⟩) (run_last m ρ)

end Cert.KernelIdeal.Hand

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.DensePayload.lean ====
/-
  The two kernel bodies' arithmetic, read at one entry of the stored block, on the extended reals.

  A body receives a block of rows of the neighbour sums, the same rows of the node features, the weight matrices whole
  and a bias as a one-row matrix. Changing the float format is the identity on extended reals and a matrix product
  into the zero accumulator is the plain sum over the contracted axis, so the first layer's block has at row p, column q

      (sum over k of agg(p,k)·wrel(k,q) + sum over k of x(p,k)·wroot(k,q)) + b(0,q),

  and the second body, which applies the classifier to its layer's rows before storing, has

      sum over k of [ (sum over l of agg(p,l)·wrel(l,k) + sum over l of h(p,l)·wroot(l,k)) + b(0,k) ] · wfc(k,q) + bfc(0,q).

  Nothing here needs the entries to be finite: no sum is regrouped and no factor moved across a sum.
-/
import proofs.«126003_j77146202571273_1_alg».proof.Proof.Gen.KernelIdeal.Skeleton
import proofs.«126003_j77146202571273_1_alg».proof.Proof.LibMatmulRowsByCols
import proofs.«126003_j77146202571273_1_alg».proof.Proof.LibOneRowMatrix
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-! ## Where each matrix product reads its operands: the left at (row, k), the right at (k, column) -/

theorem d16_l0 (i : S10000x32.Idx) (q : dot_S10000x16_S16x32_S10000x32_1_0_0_1_n_n.contr.Idx) :
    (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem d16_l1 (i : S10000x32.Idx) (q : dot_S10000x16_S16x32_S10000x32_1_0_0_1_n_n.contr.Idx) :
    (dot_S10000x16_S16x32_S10000x32_1_0_0_1_n_n.lhsIdx i q 1).val = (q ⟨0, by decide⟩).val :=
  dot_S10000x16_S16x32_S10000x32_1_0_0_1_n_n.lhsIdx_val_of_single rfl i q
theorem d16_r0 (i : S10000x32.Idx) (q : dot_S10000x16_S16x32_S10000x32_1_0_0_1_n_n.contr.Idx) :
    (dot_S10000x16_S16x32_S10000x32_1_0_0_1_n_n.rhsIdx i q 0).val = (q ⟨0, by decide⟩).val :=
  dot_S10000x16_S16x32_S10000x32_1_0_0_1_n_n.rhsIdx_val_of_single rfl i q
theorem d16_r1 (i : S10000x32.Idx) (q : dot_S10000x16_S16x32_S10000x32_1_0_0_1_n_n.contr.Idx) :
    (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

theorem d32_l0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem d32_l1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem d32_r0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem d32_r1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

theorem d64_l0 (i : S10000x10.Idx) (q : dot_S10000x64_S64x10_S10000x10_1_0_0_1_n_n.contr.Idx) :
    (dot_S10000x64_S64x10_S10000x10_1_0_0_1_n_n.lhsIdx i q 0).val = (i 0).val := by
  unfold DotDims.lhsIdx
  rw [dif_neg (show ¬(0 : Fin S10000x64.rank) ∈ dot_S10000x64_S64x10_S10000x10_1_0_0_1_n_n.lhsBatch by decide), dif_pos (show (0 : Fin S10000x64.rank) ∈ dot_S10000x64_S64x10_S10000x10_1_0_0_1_n_n.lhsNonContracting by decide)]
  rfl
theorem d64_l1 (i : S10000x10.Idx) (q : dot_S10000x64_S64x10_S10000x10_1_0_0_1_n_n.contr.Idx) :
    (dot_S10000x64_S64x10_S10000x10_1_0_0_1_n_n.lhsIdx i q 1).val = (q ⟨0, by decide⟩).val :=
  dot_S10000x64_S64x10_S10000x10_1_0_0_1_n_n.lhsIdx_val_of_single rfl i q
theorem d64_r0 (i : S10000x10.Idx) (q : dot_S10000x64_S64x10_S10000x10_1_0_0_1_n_n.contr.Idx) :
    (dot_S10000x64_S64x10_S10000x10_1_0_0_1_n_n.rhsIdx i q 0).val = (q ⟨0, by decide⟩).val :=
  dot_S10000x64_S64x10_S10000x10_1_0_0_1_n_n.rhsIdx_val_of_single rfl i q
theorem d64_r1 (i : S10000x10.Idx) (q : dot_S10000x64_S64x10_S10000x10_1_0_0_1_n_n.contr.Idx) :
    (dot_S10000x64_S64x10_S10000x10_1_0_0_1_n_n.rhsIdx i q 1).val = (i 1).val := by
  unfold DotDims.rhsIdx
  rw [dif_neg (show ¬(1 : Fin S64x10.rank) ∈ dot_S10000x64_S64x10_S10000x10_1_0_0_1_n_n.rhsBatch by decide), dif_pos (show (1 : Fin S64x10.rank) ∈ dot_S10000x64_S64x10_S10000x10_1_0_0_1_n_n.rhsNonContracting by decide)]
  rfl

/-! ## The first layer's block -/

theorem layer1_block_apply (x0 x1 : Vec Ideal S10000x16 .f32) (x2 x3 : Vec Ideal S16x32 .f32) (x4 : Vec Ideal S1x32 .f32)
    (p : Fin 10000) (q : Fin 32) :
    k0_pay1 (F := Ideal) x0 x1 x2 x3 x4 (ix2 p q)
      = (∑ k : Fin 16, x0 (ix2 p k) * x2 (ix2 k q) + ∑ k : Fin 16, x1 (ix2 p k) * x3 (ix2 k q)) + x4 (ix2 0 q) := by
  unfold k0_pay1
  rw [shapeCast_self, shapeCast_self]
  refine congrArg₂ (· + ·) (congrArg₂ (· + ·) ?_ ?_) ?_
  · exact MatmulRowsByCols.matmul_zero_apply dot_S10000x16_S16x32_S10000x32_1_0_0_1_n_n rfl rfl d16_l0 d16_l1 d16_r0 d16_r1 none _ _ p q
  · exact MatmulRowsByCols.matmul_zero_apply dot_S10000x16_S16x32_S10000x32_1_0_0_1_n_n rfl rfl d16_l0 d16_l1 d16_r0 d16_r1 none _ _ p q
  · exact OneRowMatrix.broadcast_row_apply x4 _ p q

/-! ## The second layer's rows, then the classifier -/

/-- The second layer's rows before the classifier, at row p, column k. -/
def layer2_row (x0 x1 : Vec Ideal S10000x32 .f32) (x2 x3 : Vec Ideal S32x64 .f32) (x4 : Vec Ideal S1x64 .f32)
    (p : Fin 10000) (k : Fin 64) : EReal :=
  (∑ l : Fin 32, x0 (ix2 p l) * x2 (ix2 l k) + ∑ l : Fin 32, x1 (ix2 p l) * x3 (ix2 l k)) + x4 (ix2 0 k)

theorem layer2_block_apply (x0 x1 : Vec Ideal S10000x32 .f32) (x2 x3 : Vec Ideal S32x64 .f32) (x4 : Vec Ideal S1x64 .f32)
    (x5 : Vec Ideal S64x10 .f32) (x6 : Vec Ideal S1x10 .f32) (p : Fin 10000) (q : Fin 10) :
    k1_pay1 (F := Ideal) x0 x1 x2 x3 x4 x5 x6 (ix2 p q)
      = ∑ k : Fin 64, layer2_row x0 x1 x2 x3 x4 p k * x5 (ix2 k q) + x6 (ix2 0 q) := by
  unfold k1_pay1
  rw [shapeCast_self, shapeCast_self, shapeCast_self, shapeCast_self]
  refine congrArg₂ (· + ·) ?_ ?_
  · refine (MatmulRowsByCols.matmul_zero_apply dot_S10000x64_S64x10_S10000x10_1_0_0_1_n_n rfl rfl d64_l0 d64_l1 d64_r0 d64_r1 none _ _ p q).trans ?_
    refine Finset.sum_congr rfl fun k _ => congrArg (· * x5 (ix2 k q)) ?_
    unfold layer2_row
    refine congrArg₂ (fun a b : EReal => a + b) (congrArg₂ (fun a b : EReal => a + b) ?_ ?_) ?_
    · exact MatmulRowsByCols.matmul_zero_apply dot_S10000x32_S32x64_S10000x64_1_0_0_1_n_n rfl rfl d32_l0 d32_l1 d32_r0 d32_r1 none _ _ p k
    · exact MatmulRowsByCols.matmul_zero_apply dot_S10000x32_S32x64_S10000x64_1_0_0_1_n_n rfl rfl d32_l0 d32_l1 d32_r0 d32_r1 none _ _ p k
    · exact OneRowMatrix.broadcast_row_apply x4 _ p k
  · exact OneRowMatrix.broadcast_row_apply x6 _ p q

end Cert.KernelIdeal.Hand

end
-- ==== Proof.LayerOne.lean ====
/-
  The first layer's output array after its run, as one function of the arrays the layer finds at entry.

  The layer is tiled by rows: grid point t works on rows 10000·t … 10000·t + 9999 of the neighbour sums and of the node
  features, with the weights and the one-row bias whole, and writes back the same rows of the output. So the block
  written at point t, at local row p and column q, is the body's arithmetic at global row r = 10000·t + p:

      (sum over k of agg(r,k)·wrel(k,q) + sum over k of x(r,k)·wroot(k,q)) + b(0,q);

  the ten blocks cover the array, and the array ends holding that function of the entry arrays. The entry contents
  are a parameter here; what they are is read elsewhere.
-/
import proofs.«126003_j77146202571273_1_alg».proof.Proof.Gen.KernelIdeal.Frame
import proofs.«126003_j77146202571273_1_alg».proof.Proof.DensePayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-- One dense layer at row r, column q: from the neighbour sums, the layer's input, the two weights and a one-row bias. -/
def dense1 (A X : S100000x16.Idx → EReal) (WR WT : S16x32.Idx → EReal) (B : S1x32.Idx → EReal)
    (r : Fin 100000) (q : Fin 32) : EReal :=
  (∑ k : Fin 16, A (ix2 r k) * WR (ix2 k q) + ∑ k : Fin 16, X (ix2 r k) * WT (ix2 k q)) + B (ix2 0 q)

/-- The block index maps over the grid: the row-tiled windows move together down the rows, the others stay. -/
theorem tiles0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every block of rows is some point's. -/
theorem tiles0_onto : ∀ q0 : Fin 10, ∃ t : Fin cfg0.N, win0_5.index t = ![q0.val, 0] :=
  (by decide +kernel : ∀ q0 : Fin 10, ∃ t : Fin grid0.N, win0_5.index t = ![q0.val, 0])

section AnyEntry
variable (V : (c : Dev nD) → (b : Ref sig .tc) → Buf (Elt Ideal) ((c : Thread nD τ).loc b))

/-- The output array's contents as a function of the entry arrays. -/
def layer1_of (c : Dev nD) : S100000x32.Idx → EReal :=
  fun i => dense1 (V c main_v13) (V c main_arg0) (V c main_arg2) (V c main_arg3) (V c main_v14) (i 0) (i 1)

/-! ## The input blocks at a point, as entries of the arrays -/

theorem blk0_agg (c : Dev nD) (t : Fin cfg0.N) (p : Fin 10000) (k : Fin 16) (r : Fin 100000)
    (hr : r.val = win0_5.index t (0 : Fin 2) * 10000 + p.val) :
    (iblk0 V c 0 t : Vec Ideal S10000x16 .f32) (ix2 p k) = (V c main_v13 : S100000x16.Idx → EReal) (ix2 r k) := by
  obtain ⟨e00, e01, -⟩ := tiles0 t
  unfold iblk0
  rw [View.read_apply]
  show (V c main_v13 : S100000x16.Idx → EReal) _ = _
  congr 1
  funext a
  apply Fin.ext
  match a with
  | ⟨0, _⟩ => show win0_0.index t (0 : Fin 2) * 10000 + 1 * p.val = r.val; omega
  | ⟨1, _⟩ => show win0_0.index t (1 : Fin 2) * 16 + 1 * k.val = k.val; omega

theorem blk0_x (c : Dev nD) (t : Fin cfg0.N) (p : Fin 10000) (k : Fin 16) (r : Fin 100000)
    (hr : r.val = win0_5.index t (0 : Fin 2) * 10000 + p.val) :
    (iblk0 V c 1 t : Vec Ideal S10000x16 .f32) (ix2 p k) = (V c main_arg0 : S100000x16.Idx → EReal) (ix2 r k) := by
  obtain ⟨-, -, e10, e11, -⟩ := tiles0 t
  unfold iblk0
  rw [View.read_apply]
  show (V c main_arg0 : S100000x16.Idx → EReal) _ = _
  congr 1
  funext a
  apply Fin.ext
  match a with
  | ⟨0, _⟩ => show win0_1.index t (0 : Fin 2) * 10000 + 1 * p.val = r.val; omega
  | ⟨1, _⟩ => show win0_1.index t (1 : Fin 2) * 16 + 1 * k.val = k.val; omega

theorem blk0_wrel (c : Dev nD) (t : Fin cfg0.N) (k : Fin 16) (q : Fin 32) :
    (iblk0 V c 2 t : Vec Ideal S16x32 .f32) (ix2 k q) = (V c main_arg2 : S16x32.Idx → EReal) (ix2 k q) := by
  obtain ⟨-, -, -, -, e20, e21, -⟩ := tiles0 t
  unfold iblk0
  rw [View.read_apply]
  show (V c main_arg2 : S16x32.Idx → EReal) _ = _
  congr 1
  funext a
  apply Fin.ext
  match a with
  | ⟨0, _⟩ => show win0_2.index t (0 : Fin 2) * 16 + 1 * k.val = k.val; omega
  | ⟨1, _⟩ => show win0_2.index t (1 : Fin 2) * 32 + 1 * q.val = q.val; omega

theorem blk0_wroot (c : Dev nD) (t : Fin cfg0.N) (k : Fin 16) (q : Fin 32) :
    (iblk0 V c 3 t : Vec Ideal S16x32 .f32) (ix2 k q) = (V c main_arg3 : S16x32.Idx → EReal) (ix2 k q) := by
  obtain ⟨-, -, -, -, -, -, e30, e31, -⟩ := tiles0 t
  unfold iblk0
  rw [View.read_apply]
  show (V c main_arg3 : S16x32.Idx → EReal) _ = _
  congr 1
  funext a
  apply Fin.ext
  match a with
  | ⟨0, _⟩ => show win0_3.index t (0 : Fin 2) * 16 + 1 * k.val = k.val; omega
  | ⟨1, _⟩ => show win0_3.index t (1 : Fin 2) * 32 + 1 * q.val = q.val; omega

theorem blk0_bias (c : Dev nD) (t : Fin cfg0.N) (z : Fin 1) (q : Fin 32) :
    (iblk0 V c 4 t : Vec Ideal S1x32 .f32) (ix2 z q) = (V c main_v14 : S1x32.Idx → EReal) (ix2 z q) := by
  obtain ⟨-, -, -, -, -, -, -, -, e40, e41, -⟩ := tiles0 t
  unfold iblk0
  rw [View.read_apply]
  show (V c main_v14 : S1x32.Idx → EReal) _ = _
  congr 1
  funext a
  apply Fin.ext
  match a with
  | ⟨0, _⟩ => show win0_4.index t (0 : Fin 2) * 1 + 1 * z.val = z.val; omega
  | ⟨1, _⟩ => show win0_4.index t (1 : Fin 2) * 32 + 1 * q.val = q.val; omega

/-! ## What a point writes back, the cover, and the array -/

theorem flushed0_of (c : Dev nD) (t : Fin cfg0.N) :
    (dat0 V c).flushed 5 t = ((cfg0.win 5).blk t).view.read (Elt Ideal) (layer1_of V c) := by
  show (cfg0.win 5).cut (grid0.coords t) ((dat0 V c).after 5 t) = _
  rw [after0_5]
  unfold out0_5
  rw [View.canon_unit_zero zero_offsets]
  simp only [View.ld_unit_zero (S := S10000x16) zero_offsets, View.ld_unit_zero (S := S16x32) zero_offsets,
    View.ld_unit_zero (S := S1x32) zero_offsets]
  obtain ⟨-, -, -, -, -, -, -, -, -, -, e51, e50⟩ := tiles0 t
  funext j
  obtain ⟨p, q, rfl⟩ : ∃ (p : Fin 10000) (q : Fin 32), j = ix2 p q := ⟨j 0, j 1, eq_ix2 j⟩
  obtain ⟨r, hr⟩ : ∃ r : Fin 100000, r.val = win0_5.index t (0 : Fin 2) * 10000 + p.val :=
    ⟨⟨win0_5.index t (0 : Fin 2) * 10000 + p.val, by have := p.isLt; omega⟩, rfl⟩
  have hemb : ((cfg0.win 5).blk t).view.emb (ix2 p q) = (ix2 r q : S100000x32.Idx) := by
    funext a
    apply Fin.ext
    match a with
    | ⟨0, _⟩ => show win0_5.index t (0 : Fin 2) * 10000 + 1 * p.val = r.val; omega
    | ⟨1, _⟩ => show win0_5.index t (1 : Fin 2) * 32 + 1 * q.val = q.val; omega
  show k0_pay1 (F := Ideal) (iblk0 V c 0 t) (iblk0 V c 1 t) (iblk0 V c 2 t) (iblk0 V c 3 t) (iblk0 V c 4 t) (ix2 p q)
    = layer1_of V c (((cfg0.win 5).blk t).view.emb (ix2 p q))
  rw [hemb]
  refine (layer1_block_apply (iblk0 V c 0 t) (iblk0 V c 1 t) (iblk0 V c 2 t) (iblk0 V c 3 t) (iblk0 V c 4 t) p q).trans ?_
  show _ = dense1 (V c main_v13) (V c main_arg0) (V c main_arg2) (V c main_arg3) (V c main_v14) r q
  unfold dense1
  refine congrArg₂ (fun a b : EReal => a + b) (congrArg₂ (fun a b : EReal => a + b)
    (Finset.sum_congr rfl fun k _ => ?_) (Finset.sum_congr rfl fun k _ => ?_)) ?_
  · exact congrArg₂ (fun a b : EReal => a * b) (blk0_agg V c t p k r hr) (blk0_wrel V c t k q)
  · exact congrArg₂ (fun a b : EReal => a * b) (blk0_x V c t p k r hr) (blk0_wroot V c t k q)
  · exact blk0_bias V c t 0 q

/-- An index of the array is in point t's block iff each coordinate is in the block's range on its axis. -/
theorem mem_tile0 (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v15).slice (win0_5.rect t)).set ↔ _
  rw [View.set_slice_whole, Rect.mem_set_unit]
  exact Iff.rfl

/-- Row r lies in the block of point r / 10000. -/
theorem cover0 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ := tiles0_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_tile0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 32 ≤ (i 1).val ∧ (i 1).val < win0_5.index t (1 : Fin 2) * 32 + 32; omega

/-- The first layer's output array after its run, from whatever the layer found at entry. -/
theorem layer1_array_of (c : Dev nD) : (dat0 V c).arrAt 5 cfg0.N = layer1_of V c :=
  (dat0 V c).arrAt_eq_of_cover 5 (layer1_of V c) (fun t _ => flushed0_of V c t) cover0

end AnyEntry

end Cert.KernelIdeal.Hand

end
-- ==== Proof.LayerTwo.lean ====
/-
  The second layer's output array after its run, as one function of the arrays the layer finds at entry.

  Tiled by rows like the first: grid point t works on rows 10000·t … 10000·t + 9999 of the second neighbour sums and of
  the first layer's rows, with every weight and one-row bias whole, and writes back the same rows of the logits. At
  local row p the body's arithmetic is, at global row r = 10000·t + p,

      sum over k of [ (sum over l of agg(r,l)·wrel(l,k) + sum over l of h(r,l)·wroot(l,k)) + b(0,k) ] · wfc(k,q) + bfc(0,q);

  the ten blocks cover the array. The entry contents are a parameter here; what they are is read elsewhere.
-/
import proofs.«126003_j77146202571273_1_alg».proof.Proof.Gen.KernelIdeal.Frame
import proofs.«126003_j77146202571273_1_alg».proof.Proof.DensePayload
import proofs.«126003_j77146202571273_1_alg».proof.Proof.LayerOne
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The second dense layer at row r, column k. -/
def dense2 (A H : S100000x32.Idx → EReal) (WR WT : S32x64.Idx → EReal) (B : S1x64.Idx → EReal)
    (r : Fin 100000) (k : Fin 64) : EReal :=
  (∑ l : Fin 32, A (ix2 r l) * WR (ix2 l k) + ∑ l : Fin 32, H (ix2 r l) * WT (ix2 l k)) + B (ix2 0 k)

/-- The classifier on the second layer's row r, at class q. -/
def classify (A H : S100000x32.Idx → EReal) (WR WT : S32x64.Idx → EReal) (B : S1x64.Idx → EReal)
    (WF : S64x10.Idx → EReal) (BF : S1x10.Idx → EReal) (r : Fin 100000) (q : Fin 10) : EReal :=
  ∑ k : Fin 64, dense2 A H WR WT B r k * WF (ix2 k q) + BF (ix2 0 q)

/-- The block index maps over the grid: the row-tiled windows move together down the rows, the others stay. -/
theorem tiles1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 9 :=
  (by decide +kernel : ∀ t : Fin grid1.N, _)

/-- Every block of rows is some point's. -/
theorem tiles1_onto : ∀ q0 : Fin 10, ∃ t : Fin cfg1.N, win1_7.index t = ![q0.val, 0] :=
  (by decide +kernel : ∀ q0 : Fin 10, ∃ t : Fin grid1.N, win1_7.index t = ![q0.val, 0])

section AnyEntry
variable (V : (c : Dev nD) → (b : Ref sig .tc) → Buf (Elt Ideal) ((c : Thread nD τ).loc b))

/-- The output array's contents as a function of the entry arrays. -/
def layer2_of (c : Dev nD) : S100000x10.Idx → EReal :=
  fun i => classify (V c main_v25) (V c main_v15) (V c main_arg5) (V c main_arg6) (V c main_v26) (V c main_arg8) (V c main_v27) (i 0) (i 1)

/-! ## The input blocks at a point, as entries of the arrays -/

theorem blk1_agg (c : Dev nD) (t : Fin cfg1.N) (p : Fin 10000) (l : Fin 32) (r : Fin 100000)
    (hr : r.val = win1_7.index t (0 : Fin 2) * 10000 + p.val) :
    (iblk1 V c 0 t : Vec Ideal S10000x32 .f32) (ix2 p l) = (V c main_v25 : S100000x32.Idx → EReal) (ix2 r l) := by
  obtain ⟨e00, e01, -⟩ := tiles1 t
  unfold iblk1
  rw [View.read_apply]
  show (V c main_v25 : S100000x32.Idx → EReal) _ = _
  congr 1
  funext a
  apply Fin.ext
  match a with
  | ⟨0, _⟩ => show win1_0.index t (0 : Fin 2) * 10000 + 1 * p.val = r.val; omega
  | ⟨1, _⟩ => show win1_0.index t (1 : Fin 2) * 32 + 1 * l.val = l.val; omega

theorem blk1_hidden (c : Dev nD) (t : Fin cfg1.N) (p : Fin 10000) (l : Fin 32) (r : Fin 100000)
    (hr : r.val = win1_7.index t (0 : Fin 2) * 10000 + p.val) :
    (iblk1 V c 1 t : Vec Ideal S10000x32 .f32) (ix2 p l) = (V c main_v15 : S100000x32.Idx → EReal) (ix2 r l) := by
  obtain ⟨-, -, e10, e11, -⟩ := tiles1 t
  unfold iblk1
  rw [View.read_apply]
  show (V c main_v15 : S100000x32.Idx → EReal) _ = _
  congr 1
  funext a
  apply Fin.ext
  match a with
  | ⟨0, _⟩ => show win1_1.index t (0 : Fin 2) * 10000 + 1 * p.val = r.val; omega
  | ⟨1, _⟩ => show win1_1.index t (1 : Fin 2) * 32 + 1 * l.val = l.val; omega

theorem blk1_wrel (c : Dev nD) (t : Fin cfg1.N) (l : Fin 32) (k : Fin 64) :
    (iblk1 V c 2 t : Vec Ideal S32x64 .f32) (ix2 l k) = (V c main_arg5 : S32x64.Idx → EReal) (ix2 l k) := by
  obtain ⟨-, -, -, -, e20, e21, -⟩ := tiles1 t
  unfold iblk1
  rw [View.read_apply]
  show (V c main_arg5 : S32x64.Idx → EReal) _ = _
  congr 1
  funext a
  apply Fin.ext
  match a with
  | ⟨0, _⟩ => show win1_2.index t (0 : Fin 2) * 32 + 1 * l.val = l.val; omega
  | ⟨1, _⟩ => show win1_2.index t (1 : Fin 2) * 64 + 1 * k.val = k.val; omega

theorem blk1_wroot (c : Dev nD) (t : Fin cfg1.N) (l : Fin 32) (k : Fin 64) :
    (iblk1 V c 3 t : Vec Ideal S32x64 .f32) (ix2 l k) = (V c main_arg6 : S32x64.Idx → EReal) (ix2 l k) := by
  obtain ⟨-, -, -, -, -, -, e30, e31, -⟩ := tiles1 t
  unfold iblk1
  rw [View.read_apply]
  show (V c main_arg6 : S32x64.Idx → EReal) _ = _
  congr 1
  funext a
  apply Fin.ext
  match a with
  | ⟨0, _⟩ => show win1_3.index t (0 : Fin 2) * 32 + 1 * l.val = l.val; omega
  | ⟨1, _⟩ => show win1_3.index t (1 : Fin 2) * 64 + 1 * k.val = k.val; omega

theorem blk1_bias (c : Dev nD) (t : Fin cfg1.N) (z : Fin 1) (k : Fin 64) :
    (iblk1 V c 4 t : Vec Ideal S1x64 .f32) (ix2 z k) = (V c main_v26 : S1x64.Idx → EReal) (ix2 z k) := by
  obtain ⟨-, -, -, -, -, -, -, -, e40, e41, -⟩ := tiles1 t
  unfold iblk1
  rw [View.read_apply]
  show (V c main_v26 : S1x64.Idx → EReal) _ = _
  congr 1
  funext a
  apply Fin.ext
  match a with
  | ⟨0, _⟩ => show win1_4.index t (0 : Fin 2) * 1 + 1 * z.val = z.val; omega
  | ⟨1, _⟩ => show win1_4.index t (1 : Fin 2) * 64 + 1 * k.val = k.val; omega

theorem blk1_wfc (c : Dev nD) (t : Fin cfg1.N) (k : Fin 64) (q : Fin 10) :
    (iblk1 V c 5 t : Vec Ideal S64x10 .f32) (ix2 k q) = (V c main_arg8 : S64x10.Idx → EReal) (ix2 k q) := by
  obtain ⟨-, -, -, -, -, -, -, -, -, -, e50, e51, -⟩ := tiles1 t
  unfold iblk1
  rw [View.read_apply]
  show (V c main_arg8 : S64x10.Idx → EReal) _ = _
  congr 1
  funext a
  apply Fin.ext
  match a with
  | ⟨0, _⟩ => show win1_5.index t (0 : Fin 2) * 64 + 1 * k.val = k.val; omega
  | ⟨1, _⟩ => show win1_5.index t (1 : Fin 2) * 10 + 1 * q.val = q.val; omega

theorem blk1_bfc (c : Dev nD) (t : Fin cfg1.N) (z : Fin 1) (q : Fin 10) :
    (iblk1 V c 6 t : Vec Ideal S1x10 .f32) (ix2 z q) = (V c main_v27 : S1x10.Idx → EReal) (ix2 z q) := by
  obtain ⟨-, -, -, -, -, -, -, -, -, -, -, -, e60, e61, -⟩ := tiles1 t
  unfold iblk1
  rw [View.read_apply]
  show (V c main_v27 : S1x10.Idx → EReal) _ = _
  congr 1
  funext a
  apply Fin.ext
  match a with
  | ⟨0, _⟩ => show win1_6.index t (0 : Fin 2) * 1 + 1 * z.val = z.val; omega
  | ⟨1, _⟩ => show win1_6.index t (1 : Fin 2) * 10 + 1 * q.val = q.val; omega

/-! ## What a point writes back, the cover, and the array -/

/-- The second layer's rows on the blocks of point t are its rows on the arrays, at the global row. -/
theorem rows1 (c : Dev nD) (t : Fin cfg1.N) (p : Fin 10000) (k : Fin 64) (r : Fin 100000)
    (hr : r.val = win1_7.index t (0 : Fin 2) * 10000 + p.val) :
    layer2_row (iblk1 V c 0 t) (iblk1 V c 1 t) (iblk1 V c 2 t) (iblk1 V c 3 t) (iblk1 V c 4 t) p k
      = dense2 (V c main_v25) (V c main_v15) (V c main_arg5) (V c main_arg6) (V c main_v26) r k := by
  unfold layer2_row dense2
  refine congrArg₂ (fun a b : EReal => a + b) (congrArg₂ (fun a b : EReal => a + b)
    (Finset.sum_congr rfl fun l _ => ?_) (Finset.sum_congr rfl fun l _ => ?_)) ?_
  · exact congrArg₂ (fun a b : EReal => a * b) (blk1_agg V c t p l r hr) (blk1_wrel V c t l k)
  · exact congrArg₂ (fun a b : EReal => a * b) (blk1_hidden V c t p l r hr) (blk1_wroot V c t l k)
  · exact blk1_bias V c t 0 k

theorem flushed1_of (c : Dev nD) (t : Fin cfg1.N) :
    (dat1 V c).flushed 7 t = ((cfg1.win 7).blk t).view.read (Elt Ideal) (layer2_of V c) := by
  show (cfg1.win 7).cut (grid1.coords t) ((dat1 V c).after 7 t) = _
  rw [after1_7]
  unfold out1_7
  rw [View.canon_unit_zero zero_offsets]
  simp only [View.ld_unit_zero (S := S10000x32) zero_offsets, View.ld_unit_zero (S := S32x64) zero_offsets,
    View.ld_unit_zero (S := S1x64) zero_offsets, View.ld_unit_zero (S := S64x10) zero_offsets,
    View.ld_unit_zero (S := S1x10) zero_offsets]
  obtain ⟨-, -, -, -, -, -, -, -, -, -, -, -, -, -, e71, e70⟩ := tiles1 t
  funext j
  obtain ⟨p, q, rfl⟩ : ∃ (p : Fin 10000) (q : Fin 10), j = ix2 p q := ⟨j 0, j 1, eq_ix2 j⟩
  obtain ⟨r, hr⟩ : ∃ r : Fin 100000, r.val = win1_7.index t (0 : Fin 2) * 10000 + p.val :=
    ⟨⟨win1_7.index t (0 : Fin 2) * 10000 + p.val, by have := p.isLt; omega⟩, rfl⟩
  have hemb : ((cfg1.win 7).blk t).view.emb (ix2 p q) = (ix2 r q : S100000x10.Idx) := by
    funext a
    apply Fin.ext
    match a with
    | ⟨0, _⟩ => show win1_7.index t (0 : Fin 2) * 10000 + 1 * p.val = r.val; omega
    | ⟨1, _⟩ => show win1_7.index t (1 : Fin 2) * 10 + 1 * q.val = q.val; omega
  show k1_pay1 (F := Ideal) (iblk1 V c 0 t) (iblk1 V c 1 t) (iblk1 V c 2 t) (iblk1 V c 3 t) (iblk1 V c 4 t) (iblk1 V c 5 t) (iblk1 V c 6 t) (ix2 p q)
    = layer2_of V c (((cfg1.win 7).blk t).view.emb (ix2 p q))
  rw [hemb]
  refine (layer2_block_apply (iblk1 V c 0 t) (iblk1 V c 1 t) (iblk1 V c 2 t) (iblk1 V c 3 t) (iblk1 V c 4 t) (iblk1 V c 5 t) (iblk1 V c 6 t) p q).trans ?_
  show _ = classify (V c main_v25) (V c main_v15) (V c main_arg5) (V c main_arg6) (V c main_v26) (V c main_arg8) (V c main_v27) r q
  unfold classify
  refine congrArg₂ (fun a b : EReal => a + b) (Finset.sum_congr rfl fun k _ => ?_) ?_
  · exact congrArg₂ (fun a b : EReal => a * b) (rows1 V c t p k r hr) (blk1_wfc V c t k q)
  · exact blk1_bfc V c t 0 q

/-- An index of the array is in point t's block iff each coordinate is in the block's range on its axis. -/
theorem mem_tile1 (t : Fin cfg1.N) (i : S100000x10.Idx) :
    i ∈ ((cfg1.win 7).blk t).view.set ↔ ∀ a : Fin 2, win1_7.index t a * S10000x10.size a ≤ (i a).val ∧ (i a).val < win1_7.index t a * S10000x10.size a + S10000x10.size a := by
  show i ∈ ((View.whole main_v28).slice (win1_7.rect t)).set ↔ _
  rw [View.set_slice_whole, Rect.mem_set_unit]
  exact Iff.rfl

/-- Row r lies in the block of point r / 10000. -/
theorem cover1 (i : S100000x10.Idx) : ∃ t : Fin cfg1.N, (cfg1.win 7).flush t = true ∧ i ∈ ((cfg1.win 7).blk t).view.set := by
  have hi0 : (i 0).val < 100000 := (i 0).isLt
  have hi1 : (i 1).val < 10 := (i 1).isLt
  obtain ⟨t, ht⟩ := tiles1_onto ⟨(i 0).val / 10000, by omega⟩
  have q0 : win1_7.index t (0 : Fin 2) = (i 0).val / 10000 := congrFun ht 0
  have q1 : win1_7.index t (1 : Fin 2) = 0 := congrFun ht 1
  refine ⟨t, flush1_7 t, ?_⟩
  rw [mem_tile1]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 10 ≤ (i 1).val ∧ (i 1).val < win1_7.index t (1 : Fin 2) * 10 + 10; omega

/-- The second layer's output array after its run, from whatever the layer found at entry. -/
theorem layer2_array_of (c : Dev nD) : (dat1 V c).arrAt 7 cfg1.N = layer2_of V c :=
  (dat1 V c).arrAt_eq_of_cover 7 (layer2_of V c) (fun t _ => flushed1_of V c t) cover1

end AnyEntry

end Cert.KernelIdeal.Hand

end
-- ==== Proof.LayerOneEntry.lean ====
/-
  What the first layer finds in its operand arrays when it is entered.

  Before the first layer the host has computed the neighbour sums: the rows of the node features are gathered at the
  edges' sources (a negative source wrapped once by the number of nodes) and added into the rows named by the edges'
  destinations, starting from zero. The reference performs the very same operations, so the array is named here by the
  reference's own stage and never opened. The other operands are arguments as launched, and the bias viewed as a
  one-row matrix.
-/
import proofs.«126003_j77146202571273_1_alg».proof.Proof.Gen.KernelIdeal.Frame
import proofs.«126003_j77146202571273_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The neighbour sums of the node features, as the reference names them. -/
theorem entry1_agg (c : Dev nD) :
    (V1 m ρ c main_v13 : S100000x16.Idx → EReal)
      = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results
  rfl

/-- The node features, as launched. -/
theorem entry1_x (c : Dev nD) : (V1 m ρ c main_arg0 : S100000x16.Idx → EReal) = m ((c : Thread nD τ).loc main_arg0) := by
  show StableHlo.after hostOps0 (W0 m ρ c) (Proc.devRef .tc main_arg0) = _
  after_results

theorem entry1_wrel (c : Dev nD) : (V1 m ρ c main_arg2 : S16x32.Idx → EReal) = m ((c : Thread nD τ).loc main_arg2) := by
  show StableHlo.after hostOps0 (W0 m ρ c) (Proc.devRef .tc main_arg2) = _
  after_results

theorem entry1_wroot (c : Dev nD) : (V1 m ρ c main_arg3 : S16x32.Idx → EReal) = m ((c : Thread nD τ).loc main_arg3) := by
  show StableHlo.after hostOps0 (W0 m ρ c) (Proc.devRef .tc main_arg3) = _
  after_results

/-- The bias as a one-row matrix. -/
theorem entry1_bias (c : Dev nD) :
    (V1 m ρ c main_v14 : S1x32.Idx → EReal) = shapeCast S1x32 (m ((c : Thread nD τ).loc main_arg4) : S32.Idx → EReal) shapeCasts_S32_S1x32 := by
  show StableHlo.after hostOps0 (W0 m ρ c) (Proc.devRef .tc main_v14) = _
  after_results
  rfl

end Cert.KernelIdeal.Hand

end
-- ==== Proof.ReferenceLayers.lean ====
/-
  The reference's two layers and classifier, read at one entry, on the extended reals.

  With agg the neighbour sums of the layer's input (the reference's own scatter of its gather, kept closed), the
  reference's first layer at row r, column q is

      (sum over k of agg(r,k)·wrel(k,q) + sum over k of x(r,k)·wroot(k,q)) + b(q),

  its second layer has the same form over the first layer's rows and their neighbour sums, and the classifier is one
  more product and bias. Each line below chains the generated one-operation readings and identifies the index each
  operation reads with the coordinates (row, k), (k, column).
-/
import proofs.«126003_j77146202571273_1_alg».proof.Proof.Gen.ReferenceIdeal.Read
import Idealize.ShloMosaic.Lib.ValueIdx

noncomputable section

namespace Cert.ReferenceIdeal.Layers

open Cert.ReferenceIdeal Cert.ReferenceIdeal.Read
open Idealize.ShloMosaic Idealize.ShloMosaic.ValueIdx

/-- The first layer at (r, q). -/
theorem layer1_apply (x0 : S100000x16.Idx → EReal) (x1 : (⟨S2x1600000, .i32⟩ : BufTy).Contents (Elt Ideal))
    (x2 x3 : S16x32.Idx → EReal) (x4 : S32.Idx → EReal) (r : Fin 100000) (q : Fin 32) :
    val_main_v19 (F := Ideal) x0 x1 x2 x3 x4 (ix2 r q)
      = (∑ k : Fin 16, val_main_v13 (F := Ideal) x0 x1 (ix2 r k) * x2 (ix2 k q)
          + ∑ k : Fin 16, x0 (ix2 r k) * x3 (ix2 k q)) + x4 (ix1 q) := by
  have el : ∀ k : Fin 16, lidx_main_v14 (ix2 r q) k = ix2 r k := fun k => funext fun a => by
    match a with | ⟨0, _⟩ => rfl | ⟨1, _⟩ => rfl
  have er : ∀ k : Fin 16, ridx_main_v14 (ix2 r q) k = ix2 k q := fun k => funext fun a => by
    match a with | ⟨0, _⟩ => rfl | ⟨1, _⟩ => rfl
  have el' : ∀ k : Fin 16, lidx_main_v15 (ix2 r q) k = ix2 r k := fun k => funext fun a => by
    match a with | ⟨0, _⟩ => rfl | ⟨1, _⟩ => rfl
  have er' : ∀ k : Fin 16, ridx_main_v15 (ix2 r q) k = ix2 k q := fun k => funext fun a => by
    match a with | ⟨0, _⟩ => rfl | ⟨1, _⟩ => rfl
  have eb : idx_main_v17 (idx_main_v18 (ix2 r q)) = ix1 q := funext fun a => by
    match a with | ⟨0, _⟩ => rfl
  rw [val_main_v19_apply, val_main_v16_apply, val_main_v14_apply, val_main_v15_apply, val_main_v18_apply, val_main_v17_apply]
  simp only [el, er, el', er', eb]
  rfl

/-- The second layer at (r, k), over the first layer's rows h and their neighbour sums. -/
theorem layer2_apply (x0 : S100000x16.Idx → EReal) (x1 : (⟨S2x1600000, .i32⟩ : BufTy).Contents (Elt Ideal))
    (x2 x3 : S16x32.Idx → EReal) (x4 : S32.Idx → EReal) (x5 x6 : S32x64.Idx → EReal) (x7 : S64.Idx → EReal)
    (r : Fin 100000) (k : Fin 64) :
    val_main_v35 (F := Ideal) x0 x1 x2 x3 x4 x5 x6 x7 (ix2 r k)
      = (∑ l : Fin 32, val_main_v29 (F := Ideal) x0 x1 x2 x3 x4 (ix2 r l) * x5 (ix2 l k)
          + ∑ l : Fin 32, val_main_v19 (F := Ideal) x0 x1 x2 x3 x4 (ix2 r l) * x6 (ix2 l k)) + x7 (ix1 k) := by
  have el : ∀ l : Fin 32, lidx_main_v30 (ix2 r k) l = ix2 r l := fun l => funext fun a => by
    match a with | ⟨0, _⟩ => rfl | ⟨1, _⟩ => rfl
  have er : ∀ l : Fin 32, ridx_main_v30 (ix2 r k) l = ix2 l k := fun l => funext fun a => by
    match a with | ⟨0, _⟩ => rfl | ⟨1, _⟩ => rfl
  have el' : ∀ l : Fin 32, lidx_main_v31 (ix2 r k) l = ix2 r l := fun l => funext fun a => by
    match a with | ⟨0, _⟩ => rfl | ⟨1, _⟩ => rfl
  have er' : ∀ l : Fin 32, ridx_main_v31 (ix2 r k) l = ix2 l k := fun l => funext fun a => by
    match a with | ⟨0, _⟩ => rfl | ⟨1, _⟩ => rfl
  have eb : idx_main_v33 (idx_main_v34 (ix2 r k)) = ix1 k := funext fun a => by
    match a with | ⟨0, _⟩ => rfl
  rw [val_main_v35_apply, val_main_v32_apply, val_main_v30_apply, val_main_v31_apply, val_main_v34_apply, val_main_v33_apply]
  simp only [el, er, el', er', eb]
  rfl

/-- The classifier at (r, q). -/
theorem logits_apply (x0 : S100000x16.Idx → EReal) (x1 : (⟨S2x1600000, .i32⟩ : BufTy).Contents (Elt Ideal))
    (x2 x3 : S16x32.Idx → EReal) (x4 : S32.Idx → EReal) (x5 x6 : S32x64.Idx → EReal) (x7 : S64.Idx → EReal)
    (x8 : S64x10.Idx → EReal) (x9 : S10.Idx → EReal) (r : Fin 100000) (q : Fin 10) :
    val_main_v39 (F := Ideal) x0 x1 x2 x3 x4 x5 x6 x7 x8 x9 (ix2 r q)
      = ∑ k : Fin 64, val_main_v35 (F := Ideal) x0 x1 x2 x3 x4 x5 x6 x7 (ix2 r k) * x8 (ix2 k q) + x9 (ix1 q) := by
  have el : ∀ k : Fin 64, lidx_main_v36 (ix2 r q) k = ix2 r k := fun k => funext fun a => by
    match a with | ⟨0, _⟩ => rfl | ⟨1, _⟩ => rfl
  have er : ∀ k : Fin 64, ridx_main_v36 (ix2 r q) k = ix2 k q := fun k => funext fun a => by
    match a with | ⟨0, _⟩ => rfl | ⟨1, _⟩ => rfl
  have eb : idx_main_v37 (idx_main_v38 (ix2 r q)) = ix1 q := funext fun a => by
    match a with | ⟨0, _⟩ => rfl
  rw [val_main_v39_apply, val_main_v36_apply, val_main_v38_apply, val_main_v37_apply]
  simp only [el, er, eb]
  rfl

end Cert.ReferenceIdeal.Layers

end
-- ==== Proof.LayerOneValue.lean ====
/-
  The first layer's output array after its run is the reference's first layer of the arguments.

  What the layer finds at entry is known: the neighbour sums as the reference names them, the node features and the
  weights as launched, the bias as a one-row matrix. With these the tiled layer's function of its entry arrays is,
  entry by entry, the reference's own reading of its first layer: the same two sums and the same bias entry.
-/
import proofs.«126003_j77146202571273_1_alg».proof.Proof.LayerOne
import proofs.«126003_j77146202571273_1_alg».proof.Proof.LayerOneEntry
import proofs.«126003_j77146202571273_1_alg».proof.Proof.ReferenceLayers

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first layer's rows as one function of the arguments: the reference's stage. -/
def hidden (c : Dev nD) : S100000x32.Idx → EReal :=
  Cert.ReferenceIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem layer1_array (c : Dev nD) : (dat0 (V1 m ρ) c).arrAt 5 cfg0.N = hidden m c := by
  refine (layer1_array_of (V1 m ρ) c).trans ?_
  funext i
  obtain ⟨r, q, rfl⟩ : ∃ (r : Fin 100000) (q : Fin 32), i = ix2 r q := ⟨i 0, i 1, eq_ix2 i⟩
  unfold layer1_of
  rw [entry1_agg, entry1_x, entry1_wrel, entry1_wroot, entry1_bias]
  unfold hidden
  rw [Cert.ReferenceIdeal.Layers.layer1_apply]
  unfold dense1
  refine congrArg₂ (fun a b : EReal => a + b) rfl ?_
  exact OneRowMatrix.row_of_vector _ _ q

end Cert.KernelIdeal.Hand

end
-- ==== Proof.LayerTwoEntry.lean ====
/-
  What the second layer finds in its operand arrays when it is entered.

  Between the layers the host computes the neighbour sums of the first layer's rows, by the same gather and scatter of
  the same edges; the first layer's output array holds the reference's first layer, so these sums are the reference's
  second neighbour sums, named by its own stage and never opened. The first layer's rows themselves are one operand,
  the weights are arguments as launched, and the two biases are viewed as one-row matrices.
-/
import proofs.«126003_j77146202571273_1_alg».proof.Proof.Gen.KernelIdeal.Frame
import proofs.«126003_j77146202571273_1_alg».proof.Proof.Gen.ReferenceIdeal.Read
import proofs.«126003_j77146202571273_1_alg».proof.Proof.LayerOneValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first layer's exit: its output array, and what it did not touch -/

theorem exit1_hidden (c : Dev nD) : W2 m ρ c (Proc.devRef .tc main_v15) = hidden m c :=
  (W2_arr m ρ c 5).trans (layer1_array m ρ c)

/-- The edges' sources, as the host laid them out before the first layer. -/
theorem exit1_src (c : Dev nD) :
    W2 m ρ c (Proc.devRef .tc main_v1)
      = shapeCast S1600000 (extractStridedSlice S1x1600000 ![0, 0] (m ((c : Thread nD τ).loc main_arg1)) slices_S2x1600000_S1x1600000_0_0) shapeCasts_S1x1600000_S1600000 := by
  refine (W2_of_ne m ρ c main_v1 (by decide)).trans ?_
  show StableHlo.after hostOps0 (W0 m ρ c) (Proc.devRef .tc main_v1) = _
  after_results
  rfl

/-- The edges' destinations. -/
theorem exit1_dst (c : Dev nD) :
    W2 m ρ c (Proc.devRef .tc main_v3)
      = shapeCast S1600000 (extractStridedSlice S1x1600000 ![1, 0] (m ((c : Thread nD τ).loc main_arg1)) slices_S2x1600000_S1x1600000_1_0) shapeCasts_S1x1600000_S1600000 := by
  refine (W2_of_ne m ρ c main_v3 (by decide)).trans ?_
  show StableHlo.after hostOps0 (W0 m ρ c) (Proc.devRef .tc main_v3) = _
  after_results
  rfl

theorem exit1_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

/-! ## The second layer's entry -/

/-- The neighbour sums of the first layer's rows, as the reference names them. -/
theorem entry2_agg (c : Dev nD) :
    (V3 m ρ c main_v25 : S100000x32.Idx → EReal)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v25) = _
  after_results
  rw [exit1_hidden, exit1_src, exit1_dst]
  rfl

/-- The first layer's rows. -/
theorem entry2_hidden (c : Dev nD) : (V3 m ρ c main_v15 : S100000x32.Idx → EReal) = hidden m c := by
  show StableHlo.after hostOps1 (W2 m ρ c) (Proc.devRef .tc main_v15) = _
  after_results
  exact exit1_hidden m ρ c

theorem entry2_wrel (c : Dev nD) : (V3 m ρ c main_arg5 : S32x64.Idx → EReal) = m ((c : Thread nD τ).loc main_arg5) := by
  show StableHlo.after hostOps1 (W2 m ρ c) (Proc.devRef .tc main_arg5) = _
  after_results
  refine exit1_arg m ρ c main_arg5 (by decide) ?_
  after_results

theorem entry2_wroot (c : Dev nD) : (V3 m ρ c main_arg6 : S32x64.Idx → EReal) = m ((c : Thread nD τ).loc main_arg6) := by
  show StableHlo.after hostOps1 (W2 m ρ c) (Proc.devRef .tc main_arg6) = _
  after_results
  refine exit1_arg m ρ c main_arg6 (by decide) ?_
  after_results

theorem entry2_wfc (c : Dev nD) : (V3 m ρ c main_arg8 : S64x10.Idx → EReal) = m ((c : Thread nD τ).loc main_arg8) := by
  show StableHlo.after hostOps1 (W2 m ρ c) (Proc.devRef .tc main_arg8) = _
  after_results
  refine exit1_arg m ρ c main_arg8 (by decide) ?_
  after_results

/-- The second layer's bias as a one-row matrix. -/
theorem entry2_bias (c : Dev nD) :
    (V3 m ρ c main_v26 : S1x64.Idx → EReal) = shapeCast S1x64 (m ((c : Thread nD τ).loc main_arg7) : S64.Idx → EReal) shapeCasts_S64_S1x64 := by
  show StableHlo.after hostOps1 (W2 m ρ c) (Proc.devRef .tc main_v26) = _
  after_results
  refine congrArg (fun v => shapeCast S1x64 v shapeCasts_S64_S1x64) ?_
  refine exit1_arg m ρ c main_arg7 (by decide) ?_
  after_results

/-- The classifier's bias as a one-row matrix. -/
theorem entry2_bfc (c : Dev nD) :
    (V3 m ρ c main_v27 : S1x10.Idx → EReal) = shapeCast S1x10 (m ((c : Thread nD τ).loc main_arg9) : S10.Idx → EReal) shapeCasts_S10_S1x10 := by
  show StableHlo.after hostOps1 (W2 m ρ c) (Proc.devRef .tc main_v27) = _
  after_results
  refine congrArg (fun v => shapeCast S1x10 v shapeCasts_S10_S1x10) ?_
  refine exit1_arg m ρ c main_arg9 (by decide) ?_
  after_results

end Cert.KernelIdeal.Hand

end
-- ==== Proof.LayerTwoValue.lean ====
/-
  The second layer's output array after its run is the reference's result of the arguments.

  What the layer finds at entry is known: the neighbour sums of the first layer's rows as the reference names them,
  those rows themselves, the weights as launched, the two biases as one-row matrices. With these the tiled layer's
  function of its entry arrays is, entry by entry, the reference's own reading of its second layer and classifier.
-/
import proofs.«126003_j77146202571273_1_alg».proof.Proof.LayerTwo
import proofs.«126003_j77146202571273_1_alg».proof.Proof.LayerTwoEntry
import proofs.«126003_j77146202571273_1_alg».proof.Proof.ReferenceLayers

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The logits as one function of the arguments: the reference's last stage. -/
def logits (c : Dev nD) : S100000x10.Idx → EReal :=
  Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem layer2_array (c : Dev nD) : (dat1 (V3 m ρ) c).arrAt 7 cfg1.N = logits m c := by
  refine (layer2_array_of (V3 m ρ) c).trans ?_
  funext i
  obtain ⟨r, q, rfl⟩ : ∃ (r : Fin 100000) (q : Fin 10), i = ix2 r q := ⟨i 0, i 1, eq_ix2 i⟩
  unfold layer2_of
  rw [entry2_agg, entry2_hidden, entry2_wrel, entry2_wroot, entry2_bias, entry2_wfc, entry2_bfc]
  unfold logits hidden
  rw [Cert.ReferenceIdeal.Layers.logits_apply]
  unfold classify
  refine congrArg₂ (fun a b : EReal => a + b) (Finset.sum_congr rfl fun k _ => ?_) (OneRowMatrix.row_of_vector _ _ q)
  refine congrArg (fun a : EReal => a * (m ((c : Thread nD τ).loc main_arg8) : S64x10.Idx → EReal) (ix2 k q)) ?_
  rw [Cert.ReferenceIdeal.Layers.layer2_apply]
  unfold dense2
  exact congrArg₂ (fun a b : EReal => a + b) rfl (OneRowMatrix.row_of_vector _ _ k)

end Cert.KernelIdeal.Hand

end
-- ==== Proof.lean ====
/-
  A two-layer graph convolution with a linear classifier: the row-tiled kernel program against the plain reference,
  on the extended reals.

  Both programs compute, for node features x, edges (source, destination), and weights,

      agg1 = neighbour sums of x            h1 = agg1·Wrel1 + x·Wroot1 + b1
      agg2 = neighbour sums of h1           h2 = agg2·Wrel2 + h1·Wroot2 + b2          out = h2·Wfc + bfc,

  the neighbour sums by the same host gather and scatter-add of the same edge list in both. The kernel program runs
  each dense layer tiled by blocks of 10000 rows (the second fused with the classifier); the reference runs whole-array
  products. On extended reals a change of float format is the identity and a product into the zero accumulator is the
  plain sum over the contracted axis, so block by block the kernel's rows are the reference's rows, entry by entry, with
  no regrouping of any sum: the claim needs nothing of the inputs' finiteness. The neighbour sums are never opened: they
  are one function applied to equal arrays on both sides.

  The result is stated as the reference's own last stage of the kernel's arguments; the kernel's run reaches it through
  the two layers' output arrays (each the cover of its ten row blocks), the reference's run by its generated reading.
  No rewrite was applied in idealizing the kernel, so that part of the claim is trivial.
-/
import proofs.«126003_j77146202571273_1_alg».proof.Defs
import proofs.«126003_j77146202571273_1_alg».proof.Proof.Gen.Kernel
import proofs.«126003_j77146202571273_1_alg».proof.Proof.Gen.Kernel.Skeleton
import proofs.«126003_j77146202571273_1_alg».proof.Proof.Gen.Kernel.Launch
import proofs.«126003_j77146202571273_1_alg».proof.Proof.Gen.Kernel.Points
import proofs.«126003_j77146202571273_1_alg».proof.Proof.Gen.Kernel.Frame
import proofs.«126003_j77146202571273_1_alg».proof.Proof.Gen.KernelIdeal
import proofs.«126003_j77146202571273_1_alg».proof.Proof.Gen.KernelIdeal.Skeleton
import proofs.«126003_j77146202571273_1_alg».proof.Proof.Gen.KernelIdeal.Launch
import proofs.«126003_j77146202571273_1_alg».proof.Proof.Gen.KernelIdeal.Points
import proofs.«126003_j77146202571273_1_alg».proof.Proof.Gen.KernelIdeal.Frame
import proofs.«126003_j77146202571273_1_alg».proof.Proof.Gen.ReferenceIdeal
import proofs.«126003_j77146202571273_1_alg».proof.Proof.Gen.ReferenceIdeal.Run
import proofs.«126003_j77146202571273_1_alg».proof.Proof.Gen.ReferenceIdeal.Read
import proofs.«126003_j77146202571273_1_alg».proof.Proof.Gen.Pre_finite_inputs
import proofs.«126003_j77146202571273_1_alg».proof.Proof.KernelRun
import proofs.«126003_j77146202571273_1_alg».proof.Proof.LayerTwoValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized one. -/
theorem frame_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the logits at the reference's last stage of the (agreeing) arguments. -/
theorem algebraic : Cert.algebraic_KernelIdeal_ReferenceIdeal := by
  intro m ρ m' ρ' _ hagree
  refine ⟨fun c => Cert.KernelIdeal.Hand.logits m c, ?_, ?_⟩
  · exact (θ_run Cert.KernelIdeal.defs _ _).mono
      (fun _ h c => ⟨(h c).1.trans (Cert.KernelIdeal.Hand.layer2_array m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v39_eq, h0, h1, h2, h3, h4, h5, h6, h7, h8, h9]
    rfl

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
